-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S128x40 1) : IVec S_ 1 :=
  let main_c_5 : IVec S_ 1 := constantI S_ 1 1#1
  let main_v17 : IVec S_ 1 := (fun x v => Host.reduce IntOp.andi x v reducesTo_S128x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S50000x128 .f32) (main_arg1 : IVec S2x600000 32) (main_arg2 : FVec F S128x128 .f32) (main_arg3 : FVec F S128 .f32) (main_arg4 : FVec F S128x40 .f32) (main_arg5 : FVec F S40 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x40 .f32 := Host.absf main_arg4
  let main_cst_4 : FVec F S_ .f32 := constant S_ .f32 0x7F800000#32
  let main_v15 : FVec F S128x40 .f32 := broadcastInDim S128x40 ![] bcast_S_S128x40 main_cst_4
  let main_v16 : IVec S128x40 1 := cmpf .olt main_v14 main_v15
  fn_part1 (F := F) main_arg5 main_v13 main_v16
-- ==== Kernel.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S50000 : Shape := ⟨1, ![50000]⟩
abbrev S1x600000 : Shape := ⟨2, ![1, 600000]⟩
abbrev S600000 : Shape := ⟨1, ![600000]⟩
abbrev S650000 : Shape := ⟨1, ![650000]⟩
abbrev S_ : Shape := ⟨0, ![]⟩
abbrev S650000x1 : Shape := ⟨2, ![650000, 1]⟩
abbrev S650000x128 : Shape := ⟨2, ![650000, 128]⟩
abbrev S1x128 : Shape := ⟨2, ![1, 128]⟩
abbrev S1x40 : Shape := ⟨2, ![1, 40]⟩
abbrev S50000x40 : Shape := ⟨2, ![50000, 40]⟩
abbrev S5000x128 : Shape := ⟨2, ![5000, 128]⟩
abbrev S5000x40 : Shape := ⟨2, ![5000, 40]⟩

abbrev nBuf : Space → Nat
  | .hbm => 81
  | .vmem => 8
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x40, .f32⟩
  | .hbm, ⟨5, _⟩ => ⟨S40, .f32⟩
  | .hbm, ⟨6, _⟩ => ⟨S50000, .i32⟩
  | .hbm, ⟨7, _⟩ => ⟨S1x600000, .i32⟩
  | .hbm, ⟨8, _⟩ => ⟨S600000, .i32⟩
  | .hbm, ⟨9, _⟩ => ⟨S650000, .i32⟩
  | .hbm, ⟨10, _⟩ => ⟨S1x600000, .i32⟩
  | .hbm, ⟨11, _⟩ => ⟨S600000, .i32⟩
  | .hbm, ⟨12, _⟩ => ⟨S650000, .i32⟩
  | .hbm, ⟨13, _⟩ => ⟨S_, .f32⟩
  | .hbm, ⟨14, _⟩ => ⟨S650000, .f32⟩
  | .hbm, ⟨15, _⟩ => ⟨S_, .f32⟩
  | .hbm, ⟨16, _⟩ => ⟨S50000, .f32⟩
  | .hbm, ⟨17, _⟩ => ⟨S650000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S650000, .i32⟩
  | .hbm, ⟨29, _⟩ => ⟨S650000, .i1⟩
  | .hbm, ⟨30, _⟩ => ⟨S_, .i32⟩
  | .hbm, ⟨31, _⟩ => ⟨S650000, .i32⟩
  | .hbm, ⟨32, _⟩ => ⟨S650000, .i32⟩
  | .hbm, ⟨33, _⟩ => ⟨S650000, .i32⟩
  | .hbm, ⟨34, _⟩ => ⟨S650000x1, .i32⟩
  | .hbm, ⟨35, _⟩ => ⟨S650000, .f32⟩
  | .hbm, ⟨36, _⟩ => ⟨S_, .i32⟩
  | .hbm, ⟨37, _⟩ => ⟨S650000, .i32⟩
  | .hbm, ⟨38, _⟩ => ⟨S650000, .i1⟩
  | .hbm, ⟨39, _⟩ => ⟨S_, .i32⟩
  | .hbm, ⟨40, _⟩ => ⟨S650000, .i32⟩
  | .hbm, ⟨41, _⟩ => ⟨S650000, .i32⟩
  | .hbm, ⟨42, _⟩ => ⟨S650000, .i32⟩
  | .hbm, ⟨43, _⟩ => ⟨S650000x1, .i32⟩
  | .hbm, ⟨44, _⟩ => ⟨S650000, .f32⟩
  | .hbm, ⟨45, _⟩ => ⟨S650000, .f32⟩
  | .hbm, ⟨46, _⟩ => ⟨S650000x1, .f32⟩
  | .hbm, ⟨47, _⟩ => ⟨S_, .i32⟩
  | .hbm, ⟨48, _⟩ => ⟨S650000, .i32⟩
  | .hbm, ⟨49, _⟩ => ⟨S650000, .i1⟩
  | .hbm, ⟨50, _⟩ => ⟨S_, .i32⟩
  | .hbm, ⟨51, _⟩ => ⟨S650000, .i32⟩
  | .hbm, ⟨52, _⟩ => ⟨S650000, .i32⟩
  | .hbm, ⟨53, _⟩ => ⟨S650000, .i32⟩
  | .hbm, ⟨54, _⟩ => ⟨S650000x1, .i32⟩
  | .hbm, ⟨55, _⟩ => ⟨S650000x128, .f32⟩
  | .hbm, ⟨56, _⟩ => ⟨S650000x128, .f32⟩
  | .hbm, ⟨57, _⟩ => ⟨S650000x128, .f32⟩
  | .hbm, ⟨58, _⟩ => ⟨S_, .f32⟩
  | .hbm, ⟨59, _⟩ => ⟨S50000x128, .f32⟩
  | .hbm, ⟨60, _⟩ => ⟨S650000x1, .i32⟩
  | .hbm, ⟨61, _⟩ => ⟨S50000x128, .f32⟩
  | .hbm, ⟨62, _⟩ => ⟨S650000x1, .f32⟩
  | .hbm, ⟨63, _⟩ => ⟨S_, .i32⟩
  | .hbm, ⟨64, _⟩ => ⟨S650000, .i32⟩
  | .hbm, ⟨65, _⟩ => ⟨S650000, .i1⟩
  | .hbm, ⟨66, _⟩ => ⟨S_, .i32⟩
  | .hbm, ⟨67, _⟩ => ⟨S650000, .i32⟩
  | .hbm, ⟨68, _⟩ => ⟨S650000, .i32⟩
  | .hbm, ⟨69, _⟩ => ⟨S650000, .i32⟩
  | .hbm, ⟨70, _⟩ => ⟨S650000x1, .i32⟩
  | .hbm, ⟨71, _⟩ => ⟨S650000x128, .f32⟩
  | .hbm, ⟨72, _⟩ => ⟨S650000x128, .f32⟩
  | .hbm, ⟨73, _⟩ => ⟨S650000x128, .f32⟩
  | .hbm, ⟨74, _⟩ => ⟨S_, .f32⟩
  | .hbm, ⟨75, _⟩ => ⟨S50000x128, .f32⟩
  | .hbm, ⟨76, _⟩ => ⟨S650000x1, .i32⟩
  | .hbm, ⟨77, _⟩ => ⟨S50000x128, .f32⟩
  | .hbm, ⟨78, _⟩ => ⟨S1x128, .f32⟩
  | .hbm, ⟨79, _⟩ => ⟨S1x40, .f32⟩
  | .hbm, ⟨80, _⟩ => ⟨S50000x40, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S128x40, .f32⟩
  | .local _ .vmem, ⟨5, _⟩ => ⟨S1x40, .f32⟩
  | .local _ .vmem, ⟨6, _⟩ => ⟨S5000x40, .f32⟩
  | .local _ .vmem, ⟨7, _⟩ => ⟨S5000x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_8 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_c_9 : Ref sig .tc := ⟨.hbm, 63, rfl⟩
abbrev main_v44 : Ref sig .tc := ⟨.hbm, 64, rfl⟩
abbrev main_v45 : Ref sig .tc := ⟨.hbm, 65, rfl⟩
abbrev main_c_10 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_11 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x40 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x40 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x40 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  shapeCasts_S128_S1x128 : S128.ShapeCasts S1x128
  shapeCasts_S40_S1x40 : S40.ShapeCasts S1x40
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x40_S128x40_0_0 : ∀ a, (![0, 0] : Fin 2 → Nat) a + S128x40.size a ≤ S128x40.size a
  h_S128x40 : 0 < S128x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  inb_S5000x40_S5000x40_0_0 : ∀ a, (![0, 0] : Fin 2 → Nat) a + S5000x40.size a ≤ S5000x40.size a
  h_S5000x40 : 0 < S5000x40.numel
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  dot_S5000x128_S128x128_S5000x128_1_0_0_1_n_n_wf : DotDims.WF S5000x128 S128x128 S5000x128 [1] [0] [0] [1] [] []
  dot_S5000x128_S128x40_S5000x40_1_0_0_1_n_n_wf : DotDims.WF S5000x128 S128x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x40.size a ≤ S128x40.size a
  hwx0_3 : ∀ i : grid0.Coords, EltTy.bits .f32 = 32 ∨ (Rect.block (s := S128x40) S128x40.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x40.size a ≤ S1x40.size a
  hwx0_4 : ∀ i : grid0.Coords, EltTy.bits .f32 = 32 ∨ (Rect.block (s := S1x40) S1x40.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x40.size a ≤ S50000x40.size a
  hwx0_5 : ∀ i : grid0.Coords, EltTy.bits .f32 = 32 ∨ (Rect.block (s := S50000x40) S5000x40.size (cc0_transform_5 i) (hinb0_5 i)).WholeWords (EltTy.packing .f32)

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf

abbrev win0_0 : Pipeline.Window sig grid0 :=
  Pipeline.Window.ofSpec (Memref.whole main_v55) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v56) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x40.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v57) S1x40.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v58) S5000x40.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S50000 : Shape := ⟨1, ![50000]⟩
abbrev S1x600000 : Shape := ⟨2, ![1, 600000]⟩
abbrev S600000 : Shape := ⟨1, ![600000]⟩
abbrev S650000 : Shape := ⟨1, ![650000]⟩
abbrev S_ : Shape := ⟨0, ![]⟩
abbrev S650000x1 : Shape := ⟨2, ![650000, 1]⟩
abbrev S650000x128 : Shape := ⟨2, ![650000, 128]⟩
abbrev S1x128 : Shape := ⟨2, ![1, 128]⟩
abbrev S50000x40 : Shape := ⟨2, ![50000, 40]⟩
abbrev S1x40 : Shape := ⟨2, ![1, 40]⟩

abbrev nBuf : Space → Nat
  | .hbm => 86
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x40, .f32⟩
  | .hbm, ⟨5, _⟩ => ⟨S40, .f32⟩
  | .hbm, ⟨6, _⟩ => ⟨S50000, .i32⟩
  | .hbm, ⟨7, _⟩ => ⟨S1x600000, .i32⟩
  | .hbm, ⟨8, _⟩ => ⟨S600000, .i32⟩
  | .hbm, ⟨9, _⟩ => ⟨S650000, .i32⟩
  | .hbm, ⟨10, _⟩ => ⟨S1x600000, .i32⟩
  | .hbm, ⟨11, _⟩ => ⟨S600000, .i32⟩
  | .hbm, ⟨12, _⟩ => ⟨S650000, .i32⟩
  | .hbm, ⟨13, _⟩ => ⟨S_, .f32⟩
  | .hbm, ⟨14, _⟩ => ⟨S650000, .f32⟩
  | .hbm, ⟨15, _⟩ => ⟨S_, .f32⟩
  | .hbm, ⟨16, _⟩ => ⟨S50000, .f32⟩
  | .hbm, ⟨17, _⟩ => ⟨S650000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S650000, .i32⟩
  | .hbm, ⟨29, _⟩ => ⟨S650000, .i1⟩
  | .hbm, ⟨30, _⟩ => ⟨S_, .i32⟩
  | .hbm, ⟨31, _⟩ => ⟨S650000, .i32⟩
  | .hbm, ⟨32, _⟩ => ⟨S650000, .i32⟩
  | .hbm, ⟨33, _⟩ => ⟨S650000, .i32⟩
  | .hbm, ⟨34, _⟩ => ⟨S650000x1, .i32⟩
  | .hbm, ⟨35, _⟩ => ⟨S650000, .f32⟩
  | .hbm, ⟨36, _⟩ => ⟨S_, .i32⟩
  | .hbm, ⟨37, _⟩ => ⟨S650000, .i32⟩
  | .hbm, ⟨38, _⟩ => ⟨S650000, .i1⟩
  | .hbm, ⟨39, _⟩ => ⟨S_, .i32⟩
  | .hbm, ⟨40, _⟩ => ⟨S650000, .i32⟩
  | .hbm, ⟨41, _⟩ => ⟨S650000, .i32⟩
  | .hbm, ⟨42, _⟩ => ⟨S650000, .i32⟩
  | .hbm, ⟨43, _⟩ => ⟨S650000x1, .i32⟩
  | .hbm, ⟨44, _⟩ => ⟨S650000, .f32⟩
  | .hbm, ⟨45, _⟩ => ⟨S650000, .f32⟩
  | .hbm, ⟨46, _⟩ => ⟨S650000x1, .f32⟩
  | .hbm, ⟨47, _⟩ => ⟨S_, .i32⟩
  | .hbm, ⟨48, _⟩ => ⟨S650000, .i32⟩
  | .hbm, ⟨49, _⟩ => ⟨S650000, .i1⟩
  | .hbm, ⟨50, _⟩ => ⟨S_, .i32⟩
  | .hbm, ⟨51, _⟩ => ⟨S650000, .i32⟩
  | .hbm, ⟨52, _⟩ => ⟨S650000, .i32⟩
  | .hbm, ⟨53, _⟩ => ⟨S650000, .i32⟩
  | .hbm, ⟨54, _⟩ => ⟨S650000x1, .i32⟩
  | .hbm, ⟨55, _⟩ => ⟨S650000x128, .f32⟩
  | .hbm, ⟨56, _⟩ => ⟨S650000x128, .f32⟩
  | .hbm, ⟨57, _⟩ => ⟨S650000x128, .f32⟩
  | .hbm, ⟨58, _⟩ => ⟨S_, .f32⟩
  | .hbm, ⟨59, _⟩ => ⟨S50000x128, .f32⟩
  | .hbm, ⟨60, _⟩ => ⟨S650000x1, .i32⟩
  | .hbm, ⟨61, _⟩ => ⟨S50000x128, .f32⟩
  | .hbm, ⟨62, _⟩ => ⟨S650000x1, .f32⟩
  | .hbm, ⟨63, _⟩ => ⟨S_, .i32⟩
  | .hbm, ⟨64, _⟩ => ⟨S650000, .i32⟩
  | .hbm, ⟨65, _⟩ => ⟨S650000, .i1⟩
  | .hbm, ⟨66, _⟩ => ⟨S_, .i32⟩
  | .hbm, ⟨67, _⟩ => ⟨S650000, .i32⟩
  | .hbm, ⟨68, _⟩ => ⟨S650000, .i32⟩
  | .hbm, ⟨69, _⟩ => ⟨S650000, .i32⟩
  | .hbm, ⟨70, _⟩ => ⟨S650000x1, .i32⟩
  | .hbm, ⟨71, _⟩ => ⟨S650000x128, .f32⟩
  | .hbm, ⟨72, _⟩ => ⟨S650000x128, .f32⟩
  | .hbm, ⟨73, _⟩ => ⟨S650000x128, .f32⟩
  | .hbm, ⟨74, _⟩ => ⟨S_, .f32⟩
  | .hbm, ⟨75, _⟩ => ⟨S50000x128, .f32⟩
  | .hbm, ⟨76, _⟩ => ⟨S650000x1, .i32⟩
  | .hbm, ⟨77, _⟩ => ⟨S50000x128, .f32⟩
  | .hbm, ⟨78, _⟩ => ⟨S50000x128, .f32⟩
  | .hbm, ⟨79, _⟩ => ⟨S1x128, .f32⟩
  | .hbm, ⟨80, _⟩ => ⟨S50000x128, .f32⟩
  | .hbm, ⟨81, _⟩ => ⟨S50000x128, .f32⟩
  | .hbm, ⟨82, _⟩ => ⟨S50000x40, .f32⟩
  | .hbm, ⟨83, _⟩ => ⟨S1x40, .f32⟩
  | .hbm, ⟨84, _⟩ => ⟨S50000x40, .f32⟩
  | .hbm, ⟨85, _⟩ => ⟨S50000x40, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_8 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_c_9 : Ref sig .tc := ⟨.hbm, 63, rfl⟩
abbrev main_v44 : Ref sig .tc := ⟨.hbm, 64, rfl⟩
abbrev main_v45 : Ref sig .tc := ⟨.hbm, 65, rfl⟩
abbrev main_c_10 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_11 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  dot_S50000x128_S128x128_S50000x128_1_0_0_1_n_n_wf : DotDims.WF S50000x128 S128x128 S50000x128 [1] [0] [0] [1] [] []
  dot_S50000x128_S128x40_S50000x40_1_0_0_1_n_n_wf : DotDims.WF S50000x128 S128x40 S50000x40 [1] [0] [0] [1] [] []

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x40_S50000x40_1_0_0_1_n_n : DotDims S50000x128 S128x40 S50000x40 where
  lhsContracting := [1]
  rhsContracting := [0]
  lhsNonContracting := [0]
  rhsNonContracting := [1]
  lhsBatch := []
  rhsBatch := []
  wf := dot_S50000x128_S128x40_S50000x40_1_0_0_1_n_n_wf

class Facts : Prop extends Facts₀ where

variable [Facts]
-- ==== Proof.Tail.lean ====
/-
  Two affine layers applied to every row of a feature matrix.

  For a matrix `h` of 50000 rows and 128 columns, weights `W₁` (128 × 128) and `W₂` (128 × 40) and bias vectors `b₁` (128)
  and `b₂` (40), entry `(r, c)` of `(h · W₁ + b₁) · W₂ + b₂` on the extended reals is

      ∑ k, (∑ j, h[r, j] · W₁[j, k] + b₁[k]) · W₂[k, c] + b₂[c].

  Row `r` of the result reads row `r` of `h` and nothing else of it, so the result may be computed on any partition of
  the rows into blocks; nothing here rearranges a sum or moves a factor across one, so no entry needs to be finite.
-/
import Idealize.ShloMosaic.Lib.ValueIdx
import Idealize.ShloMosaic.PureOps.Ideal

noncomputable section

namespace Cert.TwoLayers

open Idealize.ShloMosaic Idealize.ShloMosaic.ValueIdx

/-- `(h · W₁ + b₁) · W₂ + b₂`, entry by entry, on the extended reals. -/
def tail (h : (⟨2, ![50000, 128]⟩ : Shape).Idx → EReal) (W₁ : (⟨2, ![128, 128]⟩ : Shape).Idx → EReal)
    (b₁ : (⟨1, ![128]⟩ : Shape).Idx → EReal) (W₂ : (⟨2, ![128, 40]⟩ : Shape).Idx → EReal)
    (b₂ : (⟨1, ![40]⟩ : Shape).Idx → EReal) : (⟨2, ![50000, 40]⟩ : Shape).Idx → EReal :=
  fun i => (∑ k : Fin 128, ((∑ j : Fin 128, h (ix2 (i 0) j) * W₁ (ix2 j k)) + b₁ (ix1 k)) * W₂ (ix2 k (i 1))) + b₂ (ix1 (i 1))

/-- The same entry with the row and column named. -/
theorem tail_apply (h : (⟨2, ![50000, 128]⟩ : Shape).Idx → EReal) (W₁ : (⟨2, ![128, 128]⟩ : Shape).Idx → EReal)
    (b₁ : (⟨1, ![128]⟩ : Shape).Idx → EReal) (W₂ : (⟨2, ![128, 40]⟩ : Shape).Idx → EReal)
    (b₂ : (⟨1, ![40]⟩ : Shape).Idx → EReal) (r : Fin 50000) (c : Fin 40) :
    tail h W₁ b₁ W₂ b₂ (ix2 r c)
      = (∑ k : Fin 128, ((∑ j : Fin 128, h (ix2 r j) * W₁ (ix2 j k)) + b₁ (ix1 k)) * W₂ (ix2 k c)) + b₂ (ix1 c) := rfl

end Cert.TwoLayers

end
-- ==== Proof.RefTail.lean ====
/-
  The reference's result is the two affine layers applied to the propagated features.

  After the propagation prefix leaves the feature matrix `h` (the reference's stage `%55`), the reference computes
  `dot_general(h, W₁)`, adds the bias `b₁` broadcast over the rows, takes `dot_general` of that with `W₂` and adds `b₂`
  broadcast over the rows. Read at entry `(r, c)` through the generated stage lemmas, each `dot_general` is the plain sum over
  its one contracted axis and each broadcast reads the bias at the column, which is `Cert.TwoLayers.tail` at `(r, c)` with
  `h` kept as the prefix's stage, never opened.
-/
import proofs.«107729_j11622181503743_1_alg».proof.Proof.RefRead
import proofs.«107729_j11622181503743_1_alg».proof.Proof.Tail

noncomputable section

namespace Cert.ReferenceIdeal.RefValue

open Cert.ReferenceIdeal Cert.ReferenceIdeal.Gen Cert.ReferenceIdeal.Read Idealize.ShloMosaic Idealize.ShloMosaic.ValueIdx

/-- The reference's last stage is `tail` of the propagated features and the four parameter arrays. -/
theorem result_is_tail (x0 : (⟨S50000x128, .f32⟩ : BufTy).Contents (Elt Ideal)) (x1 : (⟨S2x600000, .i32⟩ : BufTy).Contents (Elt Ideal))
    (x2 : (⟨S128x128, .f32⟩ : BufTy).Contents (Elt Ideal)) (x3 : (⟨S128, .f32⟩ : BufTy).Contents (Elt Ideal))
    (x4 : (⟨S128x40, .f32⟩ : BufTy).Contents (Elt Ideal)) (x5 : (⟨S40, .f32⟩ : BufTy).Contents (Elt Ideal)) :
    val_main_v63 (F := Ideal) x0 x1 x2 x3 x4 x5
      = Cert.TwoLayers.tail (val_main_v55 (F := Ideal) x0 x1) x2 x3 x4 x5 := by
  funext i
  obtain ⟨r, c, rfl⟩ : ∃ (r : Fin 50000) (c : Fin 40), i = ix2 r c := ⟨i 0, i 1, eq_ix2 i⟩
  rw [Cert.TwoLayers.tail_apply, val_main_v63_apply, val_main_v60_apply, val_main_v62_apply, val_main_v61_apply]
  simp only [val_main_v59_apply, val_main_v56_apply, val_main_v58_apply, val_main_v57_apply]
  generalize val_main_v55 (F := Ideal) x0 x1 = h
  have eh : ∀ k j : Fin 128, lidx_main_v56 (lidx_main_v60 (ix2 r c) k) j = ix2 r j := fun k j =>
    funext fun a => Fin.ext (by match a with | ⟨0, _⟩ => rfl | ⟨1, _⟩ => rfl)
  have ew1 : ∀ k j : Fin 128, ridx_main_v56 (lidx_main_v60 (ix2 r c) k) j = ix2 j k := fun k j =>
    funext fun a => Fin.ext (by match a with | ⟨0, _⟩ => rfl | ⟨1, _⟩ => rfl)
  have eb1 : ∀ k : Fin 128, idx_main_v57 (idx_main_v58 (lidx_main_v60 (ix2 r c) k)) = ix1 k := fun k =>
    funext fun a => Fin.ext (by match a with | ⟨0, _⟩ => rfl)
  have ew2 : ∀ k : Fin 128, ridx_main_v60 (ix2 r c) k = ix2 k c := fun k =>
    funext fun a => Fin.ext (by match a with | ⟨0, _⟩ => rfl | ⟨1, _⟩ => rfl)
  have eb2 : idx_main_v61 (idx_main_v62 (ix2 r c)) = ix1 c :=
    funext fun a => Fin.ext (by match a with | ⟨0, _⟩ => rfl)
  simp only [eh, ew1, eb1, ew2, eb2, Ideal.addf_def]

end Cert.ReferenceIdeal.RefValue

end
-- ==== Proof.Prefix.lean ====
/-
  The propagated features as the kernel's region finds them.

  Both programs begin with the same host operations. From the edge list they form the source and destination lists `src`, `dst`
  (each edge row followed by the self loops `0 … 49999`); the degree `d` of every node is a scatter-add of ones over `dst`, and
  the inverse-root degree is `d^(-1/2)` where `d > 0` and `0` elsewhere. Every edge `e` gets the normalisation
  `norm[e] = dinv[src e] · dinv[dst e]`, and one propagation hop sends a feature matrix `h` to

      hop h = scatter-add over dst of (norm[e] · h[src e, ·]),

  node indices being wrapped (`i < 0 ↦ i + 50000`) before a row is gathered. The array the kernel's first window stages is
  `hop (hop x)`. Written as these formulas of four values — the features, `src`, `dst` and the inverse-root degree — the kernel's
  host lines and the reference's stages are the same term, and each side is matched to the formulas with its large operands kept
  as variables, so that no gather or scatter is ever opened: the reference names the result its stage `%55`, and the kernel's
  array is carried from here on as that stage.
-/
import proofs.«107729_j11622181503743_1_alg».proof.Proof.Gen.KernelIdeal.Frame
import proofs.«107729_j11622181503743_1_alg».proof.Proof.RefRead
import Idealize.ShloMosaic.Lib.StableHlo.Run

noncomputable section

namespace Cert.KernelIdeal.Propagate

open Cert.KernelIdeal Cert.KernelIdeal.Gen Idealize.ShloMosaic Idealize.ShloMosaic.TcCoe Idealize.SL.Sem
open Idealize.ShloMosaic.StableHlo

/-! ## The propagation as formulas -/

/-- Node indices wrapped into range (`i < 0 ↦ i + 50000`), as the column of start indices a gather takes. -/
def wrapped (ix : IVec S650000 32) : IVec S650000x1 32 :=
  broadcastInDim S650000x1 ![0] bcast_S650000_S650000x1_0
    (select (cmpi .slt ix (broadcastInDim S650000 ![] bcast_S_S650000 (constantI S_ 32 0#32)))
      (addi ix (broadcastInDim S650000 ![] bcast_S_S650000 (constantI S_ 32 50000#32))) ix)

/-- The inverse-root degree: the reciprocal root where the degree is positive, the given zero elsewhere. -/
def inverseRootDegree (pos : IVec S50000 1) (rs : FVec Ideal S50000 .f32) (zero : FVec Ideal S_ .f32) : FVec Ideal S50000 .f32 :=
  select pos rs (broadcastInDim S50000 ![] bcast_S_S50000 (id zero))

/-- The normalisation of every edge: the inverse-root degrees of its two ends multiplied. -/
def edgeNorm (src dst : IVec S650000 32) (dinv : FVec Ideal S50000 .f32) : FVec Ideal S650000 .f32 :=
  mulf (Host.gather gather_S50000_S650000x1_S650000_n_0_n_n_0_1_1 dinv (wrapped src))
    (Host.gather gather_S50000_S650000x1_S650000_n_0_n_n_0_1_1 dinv (wrapped dst))

/-- One propagation hop: every edge's source row, scaled by the edge's normalisation, added onto its destination row. -/
def hop (src dst : IVec S650000 32) (norm : FVec Ideal S650000 .f32) (h : FVec Ideal S50000x128 .f32) : FVec Ideal S50000x128 .f32 :=
  Host.scatterAdd scatter_S50000x128_S650000x1_S650000x128_1_0_0_1
    (broadcastInDim S50000x128 ![] bcast_S_S50000x128 (constant (F := Ideal) S_ .f32 0x00000000#32))
    (broadcastInDim S650000x1 ![0] bcast_S650000_S650000x1_0 dst)
    (mulf
      (broadcastInDim S650000x128 ![0, 1] bcast_S650000x1_S650000x128_0_1
        (broadcastInDim S650000x1 ![0] bcast_S650000_S650000x1_0 norm))
      (Host.gather gather_S50000x128_S650000x1_S650000x128_1_0_n_n_0_1_1128 h (wrapped src)))

/-- Two hops. -/
def propagated (src dst : IVec S650000 32) (dinv : FVec Ideal S50000 .f32) (x : FVec Ideal S50000x128 .f32) :
    FVec Ideal S50000x128 .f32 :=
  hop src dst (edgeNorm src dst dinv) (hop src dst (edgeNorm src dst dinv) x)

/-! ## The kernel's host lines, stretch by stretch, from any contents -/

/-- The last stretch computes two hops of the features it finds, from the source and destination lists and the inverse-root
    degree it finds. -/
theorem hops_after (W : Valuation τ sig (Elt Ideal)) :
    (after hostOps0_2 W (Proc.devRef .tc main_v55) : FVec Ideal S50000x128 .f32)
      = propagated (W (Proc.devRef .tc main_v3)) (W (Proc.devRef .tc main_v6)) (W (Proc.devRef .tc main_v14))
          (W (Proc.devRef .tc main_arg0)) := by
  simp only [hostOps0_2]
  after_results_simp
  rfl

/-- The middle stretch, the outlined selection, computes the inverse-root degree from the positivity test, the reciprocal root
    and the zero it finds, -/
theorem select_after (W : Valuation τ sig (Elt Ideal)) :
    (after hostOps0_1 W (Proc.devRef .tc main_v14) : FVec Ideal S50000 .f32)
      = inverseRootDegree (W (Proc.devRef .tc main_v12)) (W (Proc.devRef .tc main_v13)) (W (Proc.devRef .tc main_cst_2)) := by
  simp only [hostOps0_1]
  after_results_simp
  rfl

/-- and leaves the source list, the destination list and the features as it finds them. -/
theorem select_keeps_src (W : Valuation τ sig (Elt Ideal)) :
    after hostOps0_1 W (Proc.devRef .tc main_v3) = W (Proc.devRef .tc main_v3) := by
  simp only [hostOps0_1]
  after_results_simp

theorem select_keeps_dst (W : Valuation τ sig (Elt Ideal)) :
    after hostOps0_1 W (Proc.devRef .tc main_v6) = W (Proc.devRef .tc main_v6) := by
  simp only [hostOps0_1]
  after_results_simp

theorem select_keeps_features (W : Valuation τ sig (Elt Ideal)) :
    after hostOps0_1 W (Proc.devRef .tc main_arg0) = W (Proc.devRef .tc main_arg0) := by
  simp only [hostOps0_1]
  after_results_simp

/-! ## The first stretch, from the launch's contents: the reference's early stages -/

variable (m : (ℓ : Loc nD τ sig) → Buf (Elt Ideal) ℓ)

theorem first_src (c : Dev nD) :
    (after hostOps0 (fun b => m (c, b)) (Proc.devRef .tc main_v3) : IVec S650000 32)
      = Cert.ReferenceIdeal.Read.val_main_v3 (F := Ideal) (m ((c : Thread nD τ).loc main_arg1)) := by
  simp only [hostOps0]
  after_results_simp
  rfl

theorem first_dst (c : Dev nD) :
    (after hostOps0 (fun b => m (c, b)) (Proc.devRef .tc main_v6) : IVec S650000 32)
      = Cert.ReferenceIdeal.Read.val_main_v6 (F := Ideal) (m ((c : Thread nD τ).loc main_arg1)) := by
  simp only [hostOps0]
  after_results_simp
  rfl

theorem first_positive (c : Dev nD) :
    (after hostOps0 (fun b => m (c, b)) (Proc.devRef .tc main_v12) : IVec S50000 1)
      = Cert.ReferenceIdeal.Read.val_main_v12 (F := Ideal) (m ((c : Thread nD τ).loc main_arg1)) := by
  simp only [hostOps0]
  after_results_simp
  rfl

theorem first_root (c : Dev nD) :
    (after hostOps0 (fun b => m (c, b)) (Proc.devRef .tc main_v13) : FVec Ideal S50000 .f32)
      = Cert.ReferenceIdeal.Read.val_main_v13 (F := Ideal) (m ((c : Thread nD τ).loc main_arg1)) := by
  simp only [hostOps0]
  after_results_simp
  rfl

theorem first_zero (c : Dev nD) :
    (after hostOps0 (fun b => m (c, b)) (Proc.devRef .tc main_cst_2) : FVec Ideal S_ .f32)
      = Cert.ReferenceIdeal.Read.val_main_cst_2 (F := Ideal) := by
  simp only [hostOps0]
  after_results_simp
  rfl

theorem first_features (c : Dev nD) :
    (after hostOps0 (fun b => m (c, b)) (Proc.devRef .tc main_arg0) : FVec Ideal S50000x128 .f32)
      = m ((c : Thread nD τ).loc main_arg0) := by
  simp only [hostOps0]
  after_results_simp

/-! ## The reference's stage is the same formulas of its early stages -/

/-- The reference's propagation stage is two hops of the features, from its own source and destination lists and the
    inverse-root degree of its own positivity test, reciprocal root and zero. -/
theorem reference_propagated (x0 : (⟨Cert.ReferenceIdeal.S50000x128, .f32⟩ : BufTy).Contents (Elt Ideal))
    (x1 : (⟨Cert.ReferenceIdeal.S2x600000, .i32⟩ : BufTy).Contents (Elt Ideal)) :
    Cert.ReferenceIdeal.Read.val_main_v55 (F := Ideal) x0 x1
      = propagated (Cert.ReferenceIdeal.Read.val_main_v3 (F := Ideal) x1) (Cert.ReferenceIdeal.Read.val_main_v6 (F := Ideal) x1)
          (inverseRootDegree (Cert.ReferenceIdeal.Read.val_main_v12 (F := Ideal) x1)
            (Cert.ReferenceIdeal.Read.val_main_v13 (F := Ideal) x1) (Cert.ReferenceIdeal.Read.val_main_cst_2 (F := Ideal))) x0 := by
  simp only [
    Cert.ReferenceIdeal.Read.val_main_v14, Cert.ReferenceIdeal.Read.val_main_v15,
    Cert.ReferenceIdeal.Read.val_main_v16, Cert.ReferenceIdeal.Read.val_main_v17,
    Cert.ReferenceIdeal.Read.val_main_v18, Cert.ReferenceIdeal.Read.val_main_v19,
    Cert.ReferenceIdeal.Read.val_main_v20, Cert.ReferenceIdeal.Read.val_main_v21,
    Cert.ReferenceIdeal.Read.val_main_v22, Cert.ReferenceIdeal.Read.val_main_v23,
    Cert.ReferenceIdeal.Read.val_main_v24, Cert.ReferenceIdeal.Read.val_main_v25,
    Cert.ReferenceIdeal.Read.val_main_v26, Cert.ReferenceIdeal.Read.val_main_v27,
    Cert.ReferenceIdeal.Read.val_main_v28, Cert.ReferenceIdeal.Read.val_main_v29,
    Cert.ReferenceIdeal.Read.val_main_v30, Cert.ReferenceIdeal.Read.val_main_v31,
    Cert.ReferenceIdeal.Read.val_main_v32, Cert.ReferenceIdeal.Read.val_main_v33,
    Cert.ReferenceIdeal.Read.val_main_v34, Cert.ReferenceIdeal.Read.val_main_v35,
    Cert.ReferenceIdeal.Read.val_main_v36, Cert.ReferenceIdeal.Read.val_main_v37,
    Cert.ReferenceIdeal.Read.val_main_v38, Cert.ReferenceIdeal.Read.val_main_v39,
    Cert.ReferenceIdeal.Read.val_main_v40, Cert.ReferenceIdeal.Read.val_main_v41,
    Cert.ReferenceIdeal.Read.val_main_v42, Cert.ReferenceIdeal.Read.val_main_v43,
    Cert.ReferenceIdeal.Read.val_main_v44, Cert.ReferenceIdeal.Read.val_main_v45,
    Cert.ReferenceIdeal.Read.val_main_v46, Cert.ReferenceIdeal.Read.val_main_v47,
    Cert.ReferenceIdeal.Read.val_main_v48, Cert.ReferenceIdeal.Read.val_main_v49,
    Cert.ReferenceIdeal.Read.val_main_v50, Cert.ReferenceIdeal.Read.val_main_v51,
    Cert.ReferenceIdeal.Read.val_main_v52, Cert.ReferenceIdeal.Read.val_main_v53,
    Cert.ReferenceIdeal.Read.val_main_v54, Cert.ReferenceIdeal.Read.val_main_v55,
    Cert.ReferenceIdeal.Read.val_main_call0_v0, Cert.ReferenceIdeal.Read.val_main_call0_v1,
    Cert.ReferenceIdeal.Read.val_main_c, Cert.ReferenceIdeal.Read.val_main_c_3, Cert.ReferenceIdeal.Read.val_main_c_4,
    Cert.ReferenceIdeal.Read.val_main_c_5, Cert.ReferenceIdeal.Read.val_main_c_6,
    Cert.ReferenceIdeal.Read.val_main_c_7, Cert.ReferenceIdeal.Read.val_main_c_9,
    Cert.ReferenceIdeal.Read.val_main_c_10, Cert.ReferenceIdeal.Read.val_main_cst_8,
    Cert.ReferenceIdeal.Read.val_main_cst_11]
  generalize Cert.ReferenceIdeal.Read.val_main_v3 (F := Ideal) x1 = src
  generalize Cert.ReferenceIdeal.Read.val_main_v6 (F := Ideal) x1 = dst
  generalize Cert.ReferenceIdeal.Read.val_main_v12 (F := Ideal) x1 = pos
  generalize Cert.ReferenceIdeal.Read.val_main_v13 (F := Ideal) x1 = rs
  rfl

end Cert.KernelIdeal.Propagate

namespace Cert.KernelIdeal.Entry

open Cert.KernelIdeal Cert.KernelIdeal.Gen Cert.KernelIdeal.Propagate Idealize.ShloMosaic Idealize.ShloMosaic.TcCoe Idealize.SL.Sem
open Idealize.ShloMosaic.StableHlo

variable (m : (ℓ : Loc nD τ sig) → Buf (Elt Ideal) ℓ)

/-- The region finds every buffer as the three stretches of host lines leave it, one after the other. -/
theorem entry_contents (c : Dev nD) (r : Ref sig .tc) :
    V m c r = after hostOps0_2 (after hostOps0_1 (after hostOps0 (fun b => m (c, b)))) (Proc.devRef .tc r) := by
  show StableHlo.after (List.flatten [hostOps0, hostOps0_1, hostOps0_2]) (fun b => m (c, b)) (Proc.devRef .tc r) = _
  rw [List.flatten_cons, List.flatten_cons, List.flatten_cons, List.flatten_nil, List.append_nil, StableHlo.after_append, StableHlo.after_append]

/-- The first window's array at region entry is the reference's propagation stage of the launch's feature matrix and edge list. -/
theorem features_array (c : Dev nD) :
    (V m c main_v55 : S50000x128.Idx → EReal)
      = Cert.ReferenceIdeal.Read.val_main_v55 (F := Ideal) (m ((c : Thread nD τ).loc main_arg0)) (m ((c : Thread nD τ).loc main_arg1)) := by
  rw [entry_contents m c main_v55, hops_after, select_after, select_keeps_src, select_keeps_dst, select_keeps_features,
    first_src m c, first_dst m c, first_positive m c, first_root m c, first_zero m c, first_features m c]
  exact (reference_propagated _ _).symm

end Cert.KernelIdeal.Entry

end
-- ==== Proof.LibPlainProduct.lean ====
/-
  A plain matrix product into a zero accumulator, read at one entry.

  For a matrix `l` of shape `[M, K]` and a matrix `r` of shape `[K, N]`, contracted over `l`'s second axis and `r`'s first,
  the product's entry `(p, c)` on the extended reals is `∑ k, l[p, k] · r[k, c]`: the accumulator contributes the real `0`,
  the contraction index has a single axis of extent `K` and is traded for its one coordinate `k`, and the operand indices
  at the output index `(p, c)` and contraction coordinate `k` are `(p, k)` and `(k, c)`.

  The dimension numbers enter only through six facts, which a caller proves for its own record: the contraction shape
  has rank one (`hr`) and extent `K` (`hs`), and the four coordinates of the two operand indices (`hl0`, `hl1`, `hr0`,
  `hr1`). The operands' float formats are arbitrary.
-/
import Idealize.ShloMosaic.Lib.ValueIdx
import Idealize.ShloMosaic.PureOps.Ideal.Laws

noncomputable section

namespace Cert.PlainProduct

open Idealize.ShloMosaic Idealize.ShloMosaic.ValueIdx

/-- Entry `(p, c)` of an `[M, K]` by `[K, N]` product into the zero accumulator is `∑ k, l[p, k] · r[k, c]`, for any dimension
    numbers `D` whose contraction has the one axis of extent `K` and whose operand indices read `(p, k)` and `(k, c)`. -/
theorem matmul_zero_entry {M K N : ℕ} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q (0 : Fin 2)).val = (j (0 : Fin 2)).val)
    (hl1 : ∀ (j : (⟨2, ![M, N]⟩ : Shape).Idx) (q : D.contr.Idx), (D.lhsIdx j q (1 : Fin 2)).val = (q ⟨0, by omega⟩).val)
    (hr0 : ∀ (j : (⟨2, ![M, N]⟩ : Shape).Idx) (q : D.contr.Idx), (D.rhsIdx j q (0 : Fin 2)).val = (q ⟨0, by omega⟩).val)
    (hr1 : ∀ (j : (⟨2, ![M, N]⟩ : Shape).Idx) (q : D.contr.Idx), (D.rhsIdx j q (1 : Fin 2)).val = (j (1 : Fin 2)).val)
    {φ₁ φ₂ : FTy} (l : FVec Ideal ⟨2, ![M, K]⟩ φ₁) (r : FVec Ideal ⟨2, ![K, N]⟩ φ₂) (p : Fin M) (c : Fin N) :
    FloatOps.matmul D none l r (constant (F := Ideal) ⟨2, ![M, N]⟩ .f32 0x00000000#32) (ix2 p c)
      = ∑ k : Fin K, l (ix2 p k) * r (ix2 k c) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k :=
    funext fun a => Fin.ext (by
      match a with
      | ⟨0, _⟩ => exact hl0 (ix2 p c) _
      | ⟨1, _⟩ => exact (hl1 (ix2 p c) _).trans hk)
  have er : D.rhsIdx (ix2 p c) ((contrEquiv1 D K hr hs).symm k) = ix2 k c :=
    funext fun a => Fin.ext (by
      match a with
      | ⟨0, _⟩ => exact (hr0 (ix2 p c) _).trans hk
      | ⟨1, _⟩ => exact hr1 (ix2 p c) _)
  rw [el, er]

end Cert.PlainProduct

end
-- ==== Proof.Payload.lean ====
/-
  The kernel body at one entry of its output block.

  At a grid point the body holds a block `x₀` of 5000 rows of the propagated features (128 columns), the two weight matrices
  `x₁` (128 × 128) and `x₃` (128 × 40) whole, and the two bias vectors as one-row matrices `x₂` (1 × 128) and `x₄` (1 × 40).
  It multiplies `x₀` by `x₁` into a zero accumulator, adds the bias row `x₂` to every row, multiplies the sum by `x₃` into
  a zero accumulator and adds the bias row `x₄` to every row. On the extended reals a change of float format is the identity
  and a zero accumulator contributes the real `0`, so entry `(p, q)` of what it stores is

      ∑ k, (∑ j, x₀[p, j] · x₁[j, k] + x₂[0, k]) · x₃[k, q] + x₄[0, q].

  The two products' dimension numbers enter through the facts of `Cert.PlainProduct.matmul_zero_entry`: one contracted axis of
  extent 128, the left operand read at (row, k), the right at (k, column).
-/
import proofs.«107729_j11622181503743_1_alg».proof.Proof.Gen.KernelIdeal.Skeleton
import proofs.«107729_j11622181503743_1_alg».proof.Proof.LibPlainProduct
import proofs.«107729_j11622181503743_1_alg».proof.Proof.Tail
import Idealize.ShloMosaic.Lib.ValueLayout
import Idealize.ShloMosaic.Lib.Pipeline.Value

noncomputable section

namespace Cert.KernelIdeal.Body

open Cert.KernelIdeal Cert.KernelIdeal.Gen Idealize.ShloMosaic Idealize.ShloMosaic.ValueIdx

/-! ## The first product, features by the first weight matrix: which operand entries an output entry reads -/

theorem first_lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl

theorem first_lhs_col (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q

theorem first_rhs_row (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q

theorem first_rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-! ## The second product, hidden features by the second weight matrix -/

theorem second_lhs_row (i : S5000x40.Idx) (q : dot_S5000x128_S128x40_S5000x40_1_0_0_1_n_n.contr.Idx) :
    (dot_S5000x128_S128x40_S5000x40_1_0_0_1_n_n.lhsIdx i q 0).val = (i 0).val := by
  unfold DotDims.lhsIdx
  rw [dif_neg (show ¬(0 : Fin S5000x128.rank) ∈ dot_S5000x128_S128x40_S5000x40_1_0_0_1_n_n.lhsBatch by decide),
    dif_pos (show (0 : Fin S5000x128.rank) ∈ dot_S5000x128_S128x40_S5000x40_1_0_0_1_n_n.lhsNonContracting by decide)]
  rfl

theorem second_lhs_col (i : S5000x40.Idx) (q : dot_S5000x128_S128x40_S5000x40_1_0_0_1_n_n.contr.Idx) :
    (dot_S5000x128_S128x40_S5000x40_1_0_0_1_n_n.lhsIdx i q 1).val = (q ⟨0, by decide⟩).val :=
  dot_S5000x128_S128x40_S5000x40_1_0_0_1_n_n.lhsIdx_val_of_single rfl i q

theorem second_rhs_row (i : S5000x40.Idx) (q : dot_S5000x128_S128x40_S5000x40_1_0_0_1_n_n.contr.Idx) :
    (dot_S5000x128_S128x40_S5000x40_1_0_0_1_n_n.rhsIdx i q 0).val = (q ⟨0, by decide⟩).val :=
  dot_S5000x128_S128x40_S5000x40_1_0_0_1_n_n.rhsIdx_val_of_single rfl i q

theorem second_rhs_col (i : S5000x40.Idx) (q : dot_S5000x128_S128x40_S5000x40_1_0_0_1_n_n.contr.Idx) :
    (dot_S5000x128_S128x40_S5000x40_1_0_0_1_n_n.rhsIdx i q 1).val = (i 1).val := by
  unfold DotDims.rhsIdx
  rw [dif_neg (show ¬(1 : Fin S128x40.rank) ∈ dot_S5000x128_S128x40_S5000x40_1_0_0_1_n_n.rhsBatch by decide),
    dif_pos (show (1 : Fin S128x40.rank) ∈ dot_S5000x128_S128x40_S5000x40_1_0_0_1_n_n.rhsNonContracting by decide)]
  rfl

/-! ## The stored value at an entry -/

/-- Entry `(p, k)` of the hidden block: the first product's entry plus the first bias at column `k`. -/
theorem hidden_entry (x0 : FVec Ideal S5000x128 .f32) (x1 : FVec Ideal S128x128 .f32) (x2 : FVec Ideal S1x128 .f32)
    (p : Fin 5000) (k : Fin 128) :
    addf (matmul dot_S5000x128_S128x128_S5000x128_1_0_0_1_n_n none
        (truncf .bf16 x0 bitsLt_bf16_f32) (truncf .bf16 x1 bitsLt_bf16_f32) (constant S5000x128 .f32 0x00000000#32))
      (broadcastTo S5000x128 x2 broadcasts_S1x128_S5000x128) (ix2 p k)
      = (∑ j : Fin 128, x0 (ix2 p j) * x1 (ix2 j k)) + x2 (ix2 (0 : Fin 1) k) := by
  rw [addf_apply, broadcastTo_1b_ab_apply]
  refine congrArg (· + x2 (ix2 (0 : Fin 1) k)) ?_
  refine (Cert.PlainProduct.matmul_zero_entry dot_S5000x128_S128x128_S5000x128_1_0_0_1_n_n rfl rfl
    first_lhs_row first_lhs_col first_rhs_row first_rhs_col _ _ p k).trans ?_
  refine Finset.sum_congr rfl fun j _ => ?_
  rw [truncf_apply, truncf_apply]

/-- Entry `(p, q)` of what the body stores. -/
theorem pay_entry (x0 : FVec Ideal S5000x128 .f32) (x1 : FVec Ideal S128x128 .f32) (x2 : FVec Ideal S1x128 .f32)
    (x3 : FVec Ideal S128x40 .f32) (x4 : FVec Ideal S1x40 .f32) (p : Fin 5000) (q : Fin 40) :
    k0_pay1 (F := Ideal) x0 x1 x2 x3 x4 (ix2 p q)
      = (∑ k : Fin 128, ((∑ j : Fin 128, x0 (ix2 p j) * x1 (ix2 j k)) + x2 (ix2 (0 : Fin 1) k)) * x3 (ix2 k q))
        + x4 (ix2 (0 : Fin 1) q) := by
  unfold k0_pay1
  simp only [shapeCast_self]
  rw [addf_apply, broadcastTo_1b_ab_apply]
  refine congrArg (· + x4 (ix2 (0 : Fin 1) q)) ?_
  refine (Cert.PlainProduct.matmul_zero_entry dot_S5000x128_S128x40_S5000x40_1_0_0_1_n_n rfl rfl
    second_lhs_row second_lhs_col second_rhs_row second_rhs_col _ _ p q).trans ?_
  refine Finset.sum_congr rfl fun k _ => ?_
  rw [truncf_apply, truncf_apply, hidden_entry]

/-- When the block `x₀` holds, in its row `p`, row `r` of a feature matrix `H`, and the four other operands hold the weights and the
    bias rows, entry `(p, q)` of what the body stores is entry `(r, q)` of `tail` of `H` and those parameters. -/
theorem stored_is_tail (H : (⟨2, ![50000, 128]⟩ : Shape).Idx → EReal) (W₁ : (⟨2, ![128, 128]⟩ : Shape).Idx → EReal)
    (b₁ : (⟨1, ![128]⟩ : Shape).Idx → EReal) (W₂ : (⟨2, ![128, 40]⟩ : Shape).Idx → EReal) (b₂ : (⟨1, ![40]⟩ : Shape).Idx → EReal)
    (x0 : FVec Ideal S5000x128 .f32) (x1 : FVec Ideal S128x128 .f32) (x2 : FVec Ideal S1x128 .f32)
    (x3 : FVec Ideal S128x40 .f32) (x4 : FVec Ideal S1x40 .f32) (p : Fin 5000) (q : Fin 40) (r : Fin 50000)
    (h0 : ∀ j : Fin 128, x0 (ix2 p j) = H (ix2 r j))
    (h1 : ∀ j k : Fin 128, x1 (ix2 j k) = W₁ (ix2 j k))
    (h2 : ∀ k : Fin 128, x2 (ix2 (0 : Fin 1) k) = b₁ (ix1 k))
    (h3 : ∀ (k : Fin 128) (q : Fin 40), x3 (ix2 k q) = W₂ (ix2 k q))
    (h4 : ∀ q : Fin 40, x4 (ix2 (0 : Fin 1) q) = b₂ (ix1 q)) :
    k0_pay1 (F := Ideal) x0 x1 x2 x3 x4 (ix2 p q) = Cert.TwoLayers.tail H W₁ b₁ W₂ b₂ (ix2 r q) := by
  rw [pay_entry, Cert.TwoLayers.tail_apply]
  simp only [h0, h1, h2, h3, h4]

end Cert.KernelIdeal.Body

end
-- ==== Proof.Entry.lean ====
/-
  The two bias rows as the kernel's region finds them.

  Before its one region the program reshapes the bias vectors `b₁` (128 entries) and `b₂` (40 entries) into one-row matrices; these
  are the arrays the region's third and fifth windows stage. Read at `(0, k)`, a vector cast to one row is the vector at `k`.
-/
import proofs.«107729_j11622181503743_1_alg».proof.Proof.Gen.KernelIdeal.Frame
import Idealize.ShloMosaic.Lib.ValueLayout
import Idealize.ShloMosaic.Lib.StableHlo.Run

noncomputable section

namespace Cert.KernelIdeal.Entry

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ)

/-- The first bias row at region entry is the first bias vector cast to one row. -/
theorem bias1_array (c : Dev nD) :
    (V m c main_v56 : S1x128.Idx → EReal)
      = shapeCast S1x128 (m ((c : Thread nD τ).loc main_arg3) : S128.Idx → EReal) shapeCasts_S128_S1x128 := by
  dsimp only [V]
  simp only [hostOps0, hostOps0_1, hostOps0_2, List.flatten_cons, List.flatten_nil, List.append_nil, List.cons_append,
    List.nil_append]
  after_results_simp
  rfl

/-- The second bias row at region entry is the second bias vector cast to one row. -/
theorem bias2_array (c : Dev nD) :
    (V m c main_v57 : S1x40.Idx → EReal)
      = shapeCast S1x40 (m ((c : Thread nD τ).loc main_arg5) : S40.Idx → EReal) shapeCasts_S40_S1x40 := by
  dsimp only [V]
  simp only [hostOps0, hostOps0_1, hostOps0_2, List.flatten_cons, List.flatten_nil, List.append_nil, List.cons_append,
    List.nil_append]
  after_results_simp
  rfl

/-- Entry `(0, k)` of the first bias row is entry `k` of the first bias vector. -/
theorem bias1_entry (c : Dev nD) (k : Fin 128) :
    (V m c main_v56 : S1x128.Idx → EReal) (ix2 (0 : Fin 1) k)
      = (m ((c : Thread nD τ).loc main_arg3) : S128.Idx → EReal) (ix1 k) := by
  rw [bias1_array m c]
  exact shapeCast_a_1a_apply _ _ (0 : Fin 1) k

/-- Entry `(0, q)` of the second bias row is entry `q` of the second bias vector. -/
theorem bias2_entry (c : Dev nD) (q : Fin 40) :
    (V m c main_v57 : S1x40.Idx → EReal) (ix2 (0 : Fin 1) q)
      = (m ((c : Thread nD τ).loc main_arg5) : S40.Idx → EReal) (ix1 q) := by
  rw [bias2_array m c]
  exact shapeCast_a_1a_apply _ _ (0 : Fin 1) q

end Cert.KernelIdeal.Entry

end
-- ==== Proof.Blocks.lean ====
/-
  From the blocks a grid point writes to the whole result array.

  The region runs the body at ten grid points. At point `t` the first window stages rows `5000·t … 5000·t + 4999` of the
  propagated features, the four parameter windows stage their whole arrays (block index `(0, 0)` at every point), and the output
  window writes back rows `5000·t … 5000·t + 4999` of the result. Row `p` of the block the body stores is row `5000·t + p` of
  `tail` of the whole feature matrix and the parameters (`Cert.KernelIdeal.Body.stored_is_tail`: a row of the result reads the same
  row of the features and nothing else of them), so each point writes back its block of ONE whole-array function; the ten blocks
  cover the 50000 rows (row `r` lies in block `r / 5000`), hence the result array ends holding that function.
-/
import proofs.«107729_j11622181503743_1_alg».proof.Proof.Gen.KernelIdeal.Value
import proofs.«107729_j11622181503743_1_alg».proof.Proof.Payload
import proofs.«107729_j11622181503743_1_alg».proof.Proof.Entry
import Idealize.ShloMosaic.Lib.Pipeline.Value

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- The block index of every window at every grid point: the feature and result windows move down one block of rows per point,
    the parameter windows stay at their one block. Decided over the ten points. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- What the result array ends holding: `tail` of the propagated features as the region finds them and the launch's parameters. -/
def result (c : Dev nD) : S50000x40.Idx → EReal :=
  Cert.TwoLayers.tail (V m c main_v55) (m ((c : Thread nD τ).loc main_arg2)) (m ((c : Thread nD τ).loc main_arg3))
    (m ((c : Thread nD τ).loc main_arg4)) (m ((c : Thread nD τ).loc main_arg5))

/-! ## Each window's block at a point, read off its array -/

/-- Row `p` of the feature block at point `t` is row `5000·t + p` of the feature matrix. -/
theorem features_block (c : Dev nD) (t : Fin cfg0.N) (p : Fin 5000) (j : Fin 128) (r : Fin 50000)
    (hr : r.val = t.val * 5000 + p.val) :
    (iblk m c 0 t : S5000x128.Idx → EReal) (ix2 p j) = (V m c main_v55 : S50000x128.Idx → EReal) (ix2 r j) := by
  obtain ⟨e0, e1, -⟩ := block_indices t
  unfold iblk
  rw [View.read_apply]
  show (V m c main_v55 : S50000x128.Idx → EReal) _ = _
  refine congrArg (V m c main_v55 : S50000x128.Idx → EReal) ?_
  funext a
  apply Fin.ext
  match a with
  | ⟨0, _⟩ => show win0_0.index t (0 : Fin 2) * 5000 + 1 * p.val = r.val; rw [e0, hr]; omega
  | ⟨1, _⟩ => show win0_0.index t (1 : Fin 2) * 128 + 1 * j.val = j.val; rw [e1]; omega

/-- The first weight window's block is the whole first weight matrix, as launched. -/
theorem weights1_block (c : Dev nD) (t : Fin cfg0.N) (j k : Fin 128) :
    (iblk m c 1 t : S128x128.Idx → EReal) (ix2 j k) = (m ((c : Thread nD τ).loc main_arg2) : S128x128.Idx → EReal) (ix2 j k) := by
  obtain ⟨-, -, e0, e1, -⟩ := block_indices t
  unfold iblk
  rw [View.read_apply]
  show (V m c main_arg2 : S128x128.Idx → EReal) _ = _
  rw [V_main_arg2 m c]
  refine congrArg (m ((c : Thread nD τ).loc main_arg2) : S128x128.Idx → EReal) ?_
  funext a
  apply Fin.ext
  match a with
  | ⟨0, _⟩ => show win0_1.index t (0 : Fin 2) * 128 + 1 * j.val = j.val; rw [e0]; omega
  | ⟨1, _⟩ => show win0_1.index t (1 : Fin 2) * 128 + 1 * k.val = k.val; rw [e1]; omega

/-- The first bias window's block is the first bias vector as one row. -/
theorem bias1_block (c : Dev nD) (t : Fin cfg0.N) (k : Fin 128) :
    (iblk m c 2 t : S1x128.Idx → EReal) (ix2 (0 : Fin 1) k) = (m ((c : Thread nD τ).loc main_arg3) : S128.Idx → EReal) (ix1 k) := by
  obtain ⟨-, -, -, -, e0, e1, -⟩ := block_indices t
  refine Eq.trans ?_ (Cert.KernelIdeal.Entry.bias1_entry m c k)
  unfold iblk
  rw [View.read_apply]
  show (V m c main_v56 : S1x128.Idx → EReal) _ = _
  refine congrArg (V m c main_v56 : S1x128.Idx → EReal) ?_
  funext a
  apply Fin.ext
  match a with
  | ⟨0, _⟩ => show win0_2.index t (0 : Fin 2) * 1 + 1 * 0 = 0; rw [e0]
  | ⟨1, _⟩ => show win0_2.index t (1 : Fin 2) * 128 + 1 * k.val = k.val; rw [e1]; omega

/-- The second weight window's block is the whole second weight matrix, as launched. -/
theorem weights2_block (c : Dev nD) (t : Fin cfg0.N) (k : Fin 128) (q : Fin 40) :
    (iblk m c 3 t : S128x40.Idx → EReal) (ix2 k q) = (m ((c : Thread nD τ).loc main_arg4) : S128x40.Idx → EReal) (ix2 k q) := by
  obtain ⟨-, -, -, -, -, -, e0, e1, -⟩ := block_indices t
  unfold iblk
  rw [View.read_apply]
  show (V m c main_arg4 : S128x40.Idx → EReal) _ = _
  rw [V_main_arg4 m c]
  refine congrArg (m ((c : Thread nD τ).loc main_arg4) : S128x40.Idx → EReal) ?_
  funext a
  apply Fin.ext
  match a with
  | ⟨0, _⟩ => show win0_3.index t (0 : Fin 2) * 128 + 1 * k.val = k.val; rw [e0]; omega
  | ⟨1, _⟩ => show win0_3.index t (1 : Fin 2) * 40 + 1 * q.val = q.val; rw [e1]; omega

/-- The second bias window's block is the second bias vector as one row. -/
theorem bias2_block (c : Dev nD) (t : Fin cfg0.N) (q : Fin 40) :
    (iblk m c 4 t : S1x40.Idx → EReal) (ix2 (0 : Fin 1) q) = (m ((c : Thread nD τ).loc main_arg5) : S40.Idx → EReal) (ix1 q) := by
  obtain ⟨-, -, -, -, -, -, -, -, e0, e1, -⟩ := block_indices t
  refine Eq.trans ?_ (Cert.KernelIdeal.Entry.bias2_entry m c q)
  unfold iblk
  rw [View.read_apply]
  show (V m c main_v57 : S1x40.Idx → EReal) _ = _
  refine congrArg (V m c main_v57 : S1x40.Idx → EReal) ?_
  funext a
  apply Fin.ext
  match a with
  | ⟨0, _⟩ => show win0_4.index t (0 : Fin 2) * 1 + 1 * 0 = 0; rw [e0]
  | ⟨1, _⟩ => show win0_4.index t (1 : Fin 2) * 40 + 1 * q.val = q.val; rw [e1]; omega

/-- Entry `(p, q)` of the result block at point `t` sits at `(5000·t + p, q)` of the result array. -/
theorem result_index (t : Fin cfg0.N) (p : Fin 5000) (q : Fin 40) (r : Fin 50000) (hr : r.val = t.val * 5000 + p.val) :
    (((cfg0.win 5).blk t).view.emb (ix2 p q : S5000x40.Idx) : S50000x40.Idx) = ix2 r q := by
  obtain ⟨-, -, -, -, -, -, -, -, -, -, e0, e1⟩ := block_indices t
  funext a
  apply Fin.ext
  match a with
  | ⟨0, _⟩ => show win0_5.index t (0 : Fin 2) * 5000 + 1 * p.val = r.val; rw [e0, hr]; omega
  | ⟨1, _⟩ => show win0_5.index t (1 : Fin 2) * 40 + 1 * q.val = q.val; rw [e1]; omega

/-! ## What a point writes back, the cover, the final array -/

/-- WHAT POINT `t` WRITES BACK is block `t` of `result`. -/
theorem flushed_eq (c : Dev nD) (t : Fin cfg0.N) :
    (dats m 0 c).flushed 5 t = ((cfg0.win 5).blk t).view.read (Elt Ideal) (result m c) := by
  rw [Cert.KernelIdeal.Value.flushed5]
  unfold out0_5
  rw [View.canon_unit_zero zero_offsets]
  simp only [View.ld_unit_zero (S := S5000x128) zero_offsets, View.ld_unit_zero (S := S128x128) zero_offsets,
    View.ld_unit_zero (S := S1x128) zero_offsets, View.ld_unit_zero (S := S128x40) zero_offsets,
    View.ld_unit_zero (S := S1x40) zero_offsets]
  show (k0_pay1 (F := Ideal) (iblk m c 0 t) (iblk m c 1 t) (iblk m c 2 t) (iblk m c 3 t) (iblk m c 4 t) : S5000x40.Idx → EReal)
    = fun y : S5000x40.Idx => result m c (((cfg0.win 5).blk t).view.emb y)
  funext y
  obtain ⟨p, q, rfl⟩ : ∃ (p : Fin 5000) (q : Fin 40), y = ix2 p q := ⟨y 0, y 1, eq_ix2 y⟩
  have hN : grid0.N = 10 := N_0
  have hr : t.val * 5000 + p.val < 50000 := by
    have ht : t.val < grid0.N := t.isLt
    have hp : p.val < 5000 := p.isLt
    omega
  show k0_pay1 (F := Ideal) (iblk m c 0 t) (iblk m c 1 t) (iblk m c 2 t) (iblk m c 3 t) (iblk m c 4 t) (ix2 p q)
    = result m c (((cfg0.win 5).blk t).view.emb (ix2 p q : S5000x40.Idx))
  rw [result_index t p q ⟨t.val * 5000 + p.val, hr⟩ rfl]
  exact Cert.KernelIdeal.Body.stored_is_tail (V m c main_v55) (m ((c : Thread nD τ).loc main_arg2))
    (m ((c : Thread nD τ).loc main_arg3)) (m ((c : Thread nD τ).loc main_arg4)) (m ((c : Thread nD τ).loc main_arg5))
    (iblk m c 0 t) (iblk m c 1 t) (iblk m c 2 t) (iblk m c 3 t) (iblk m c 4 t) p q ⟨t.val * 5000 + p.val, hr⟩
    (fun j => features_block m c t p j ⟨t.val * 5000 + p.val, hr⟩ rfl)
    (fun j k => weights1_block m c t j k)
    (fun k => bias1_block m c t k)
    (fun k q => weights2_block m c t k q)
    (fun q => bias2_block m c t q)

/-- An index of the result array is in point `t`'s block iff each coordinate is in the block's range on its axis. -/
theorem mem_block (t : Fin cfg0.N) (i : S50000x40.Idx) :
    i ∈ ((cfg0.win 5).blk t).view.set ↔ ∀ a : Fin 2, win0_5.index t a * S5000x40.size a ≤ (i a).val
      ∧ (i a).val < win0_5.index t a * S5000x40.size a + S5000x40.size a := by
  show i ∈ ((View.whole main_v58).slice (win0_5.rect t)).set ↔ _
  rw [View.set_slice_whole, Rect.mem_set_unit]
  exact Iff.rfl

/-- THE COVER: row `r` of the result array lies in the block of point `r / 5000`. -/
theorem covered (i : S50000x40.Idx) :
    ∃ t : Fin cfg0.N, (cfg0.win 5).flush t = true ∧ i ∈ ((cfg0.win 5).blk t).view.set := by
  have hN : grid0.N = 10 := N_0
  have hi0 : (i 0).val < 50000 := (i 0).isLt
  have hi1 : (i 1).val < 40 := (i 1).isLt
  have ht : (i 0).val / 5000 < grid0.N := by omega
  obtain ⟨-, -, -, -, -, -, -, -, -, -, e0, e1⟩ := block_indices ⟨(i 0).val / 5000, ht⟩
  refine ⟨⟨(i 0).val / 5000, ht⟩, flush0_5 _, ?_⟩
  rw [mem_block]
  intro a
  match a with
  | ⟨0, _⟩ =>
    show win0_5.index ⟨(i 0).val / 5000, ht⟩ (0 : Fin 2) * 5000 ≤ (i 0).val
      ∧ (i 0).val < win0_5.index ⟨(i 0).val / 5000, ht⟩ (0 : Fin 2) * 5000 + 5000
    rw [e0]
    show (i 0).val / 5000 * 5000 ≤ (i 0).val ∧ (i 0).val < (i 0).val / 5000 * 5000 + 5000
    omega
  | ⟨1, _⟩ =>
    show win0_5.index ⟨(i 0).val / 5000, ht⟩ (1 : Fin 2) * 40 ≤ (i 1).val
      ∧ (i 1).val < win0_5.index ⟨(i 0).val / 5000, ht⟩ (1 : Fin 2) * 40 + 40
    rw [e1]
    omega

/-- THE RESULT ARRAY after the run is `result`. -/
theorem final (c : Dev nD) : (dats m 0 c).arrAt 5 cfg0.N = result m c :=
  (dats m 0 c).arrAt_eq_of_cover 5 (result m c) (fun t _ => flushed_eq m c t) covered

/-- The kernel's run, read: the result array at `result`, the arguments unchanged. -/
theorem run : θ_run defs (onTc (τ := τ) (main (F := Ideal))) ⟨m, fun _ => 0, ρ⟩ fun r => ∀ c : Dev nD,
      r.2.mem ((c : Thread nD τ).loc main_v58) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩)
    (Cert.KernelIdeal.Value.run_blocks m ρ)

end Cert.KernelIdeal.Blocks

end
-- ==== Proof.lean ====
/-
  A two-hop graph convolution followed by two affine layers: the kernel's program against its reference, on the extended reals.

  Both programs first propagate the node features `x` (50000 × 128) along the edge list with self loops: the degree of every node,
  the symmetric normalisation `d^(-1/2)[src] · d^(-1/2)[dst]` of every edge, and two hops `h ← scatter-add over dst of norm · h[src]`.
  These host operations are the same in both programs, line for line, so the propagated matrix `h` is one term of `x` and the edge
  list on both sides and is never opened (`Cert.KernelIdeal.Entry.features_array`).

  The reference then computes `(h · W₁ + b₁) · W₂ + b₂` with two `dot_general`s over the whole matrix. The kernel computes the same
  expression on ten blocks of 5000 rows, each product into a zero accumulator, with its operands rounded to bf16 on the way into the
  matrix unit. On the extended reals a change of float format is the identity and the zero accumulator adds the real `0`, so
  entry `(r, c)` of either result is

      ∑ k, (∑ j, h[r, j] · W₁[j, k] + b₁[k]) · W₂[k, c] + b₂[c]        (`Cert.TwoLayers.tail`),

  the same sums in the same arrangement: the kernel's side because row `r` of the result reads only row `r` of `h`, so the block a
  grid point writes back is a block of this one function and the ten blocks cover the array (`Cert.KernelIdeal.Blocks`); the
  reference's side by reading its last eight stages at an index (`Cert.ReferenceIdeal.RefValue.result_is_tail`). No sum is
  rearranged and no factor moved across a sum, so the equality holds at infinite entries too and the precondition is not used.

  The three frames are the generated ones (the reference's is its generated run with the result dropped); the ideal pass rewrote no
  operation, so the kernel's idealization is its own text read on the extended reals and there is nothing to preserve.
-/
import proofs.«107729_j11622181503743_1_alg».proof.Defs
import proofs.«107729_j11622181503743_1_alg».proof.Proof.Gen.Kernel
import proofs.«107729_j11622181503743_1_alg».proof.Proof.Gen.Kernel.Skeleton
import proofs.«107729_j11622181503743_1_alg».proof.Proof.Gen.Kernel.Launch
import proofs.«107729_j11622181503743_1_alg».proof.Proof.Gen.Kernel.Points
import proofs.«107729_j11622181503743_1_alg».proof.Proof.Gen.Kernel.Frame
import proofs.«107729_j11622181503743_1_alg».proof.Proof.Gen.KernelIdeal
import proofs.«107729_j11622181503743_1_alg».proof.Proof.Gen.KernelIdeal.Skeleton
import proofs.«107729_j11622181503743_1_alg».proof.Proof.Gen.KernelIdeal.Launch
import proofs.«107729_j11622181503743_1_alg».proof.Proof.Gen.KernelIdeal.Points
import proofs.«107729_j11622181503743_1_alg».proof.Proof.Gen.KernelIdeal.Frame
import proofs.«107729_j11622181503743_1_alg».proof.Proof.Gen.ReferenceIdeal
import proofs.«107729_j11622181503743_1_alg».proof.Proof.Gen.Pre_finite_inputs
import proofs.«107729_j11622181503743_1_alg».proof.Proof.Gen.KernelIdeal.Value
import proofs.«107729_j11622181503743_1_alg».proof.Proof.RefRead
import proofs.«107729_j11622181503743_1_alg».proof.Proof.RefTail
import proofs.«107729_j11622181503743_1_alg».proof.Proof.Prefix
import proofs.«107729_j11622181503743_1_alg».proof.Proof.Blocks
import Idealize.ShloMosaic.Adequacy
import Idealize.ShloMosaic.Init

noncomputable section

namespace Cert.Proof

open Idealize.ShloMosaic Idealize.ShloMosaic.TcCoe Idealize.SL.Sem

/-- The kernel's program as printed terminates without a fault and leaves its arguments as launched. -/
theorem frame_kernel : Cert.frame_Kernel := fun m ρ _ => Cert.Kernel.Gen.frame m ρ

/-- So does its reading on the extended reals. -/
theorem frame_kernel_ideal : Cert.frame_KernelIdeal := fun m ρ _ => Cert.KernelIdeal.Gen.frame m ρ

/-- So does the reference: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote nothing: there is no conjunct to restate. -/
theorem preserves : Cert.preserves_Kernel_KernelIdeal := trivial

/-- On the extended reals, from memories agreeing on the arguments, the kernel's result array ends at `tail` of the propagated
    features as its region finds them, the reference's at `tail` of its propagation stage; the two feature matrices are one term
    of the arguments. -/
theorem algebraic : Cert.algebraic_KernelIdeal_ReferenceIdeal := by
  intro m ρ m' ρ' _ hagree
  refine ⟨fun c => Cert.KernelIdeal.Blocks.result m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5⟩ := hagree c
  rw [Cert.ReferenceIdeal.Read.val_main_v63_eq, Cert.ReferenceIdeal.RefValue.result_is_tail, h0, h1, h2, h3, h4, h5]
  show _ = Cert.KernelIdeal.Blocks.result m c
  unfold Cert.KernelIdeal.Blocks.result
  rw [Cert.KernelIdeal.Entry.features_array m c]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
